-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S1024x256x256 : Shape := ⟨3, ![1024, 256, 256]⟩
abbrev S16x256x256 : Shape := ⟨3, ![16, 256, 256]⟩
abbrev S8x8x256 : Shape := ⟨3, ![8, 8, 256]⟩
abbrev S1x64x256 : Shape := ⟨3, ![1, 64, 256]⟩
abbrev S64x256 : Shape := ⟨2, ![64, 256]⟩

abbrev nBuf : Space → Nat
  | .hbm => 4
  | .vmem => 4
  | .smem => 0
  | _ => 0

abbrev bufTy : (tb : Table) → Fin (tcTables nBuf tb) → BufTy
  | .hbm, ⟨0, _⟩ => ⟨S16x64x256x256, .f32⟩
  | .hbm, ⟨1, _⟩ => ⟨S1024x256x256, .f32⟩
  | .hbm, ⟨2, _⟩ => ⟨S1024x256x256, .f32⟩
  | .hbm, ⟨3, _⟩ => ⟨S16x64x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x64x256x256_S1024x256x256 : S16x64x256x256.ShapeCasts S1024x256x256
  iota_S8x8x256_d2_w32 : S8x8x256.Iotas .tc 32 [2]
  iota_S8x8x256_d1_w32 : S8x8x256.Iotas .tc 32 [1]
  inb_S16x256x256_S1x64x256_0_0_0 : ∀ a, (![0, 0, 0] : Fin 3 → Nat) a + S1x64x256.size a ≤ S16x256x256.size a
  h_S1x64x256 : 0 < S1x64x256.numel
  shapeCasts_S1x64x256_S64x256 : S1x64x256.ShapeCasts S64x256
  shapeCasts_S64x256_S8x8x256 : S64x256.ShapeCasts S8x8x256
  rotates_S8x8x256_d2 : S8x8x256.Rotates 2 none
  rotates_S8x8x256_d1 : S8x8x256.Rotates 1 none
  shapeCasts_S8x8x256_S64x256 : S8x8x256.ShapeCasts S64x256
  shapeCasts_S64x256_S1x64x256 : S64x256.ShapeCasts S1x64x256
  inb_S16x256x256_S1x64x256_0_64_0 : ∀ a, (![0, 64, 0] : Fin 3 → Nat) a + S1x64x256.size a ≤ S16x256x256.size a
  inb_S16x256x256_S1x64x256_0_128_0 : ∀ a, (![0, 128, 0] : Fin 3 → Nat) a + S1x64x256.size a ≤ S16x256x256.size a
  inb_S16x256x256_S1x64x256_0_192_0 : ∀ a, (![0, 192, 0] : Fin 3 → Nat) a + S1x64x256.size a ≤ S16x256x256.size a
  inb_S16x256x256_S1x64x256_1_0_0 : ∀ a, (![1, 0, 0] : Fin 3 → Nat) a + S1x64x256.size a ≤ S16x256x256.size a
  inb_S16x256x256_S1x64x256_1_64_0 : ∀ a, (![1, 64, 0] : Fin 3 → Nat) a + S1x64x256.size a ≤ S16x256x256.size a
  inb_S16x256x256_S1x64x256_1_128_0 : ∀ a, (![1, 128, 0] : Fin 3 → Nat) a + S1x64x256.size a ≤ S16x256x256.size a
  inb_S16x256x256_S1x64x256_1_192_0 : ∀ a, (![1, 192, 0] : Fin 3 → Nat) a + S1x64x256.size a ≤ S16x256x256.size a
  inb_S16x256x256_S1x64x256_2_0_0 : ∀ a, (![2, 0, 0] : Fin 3 → Nat) a + S1x64x256.size a ≤ S16x256x256.size a
  inb_S16x256x256_S1x64x256_2_64_0 : ∀ a, (![2, 64, 0] : Fin 3 → Nat) a + S1x64x256.size a ≤ S16x256x256.size a
  inb_S16x256x256_S1x64x256_2_128_0 : ∀ a, (![2, 128, 0] : Fin 3 → Nat) a + S1x64x256.size a ≤ S16x256x256.size a
  inb_S16x256x256_S1x64x256_2_192_0 : ∀ a, (![2, 192, 0] : Fin 3 → Nat) a + S1x64x256.size a ≤ S16x256x256.size a
  inb_S16x256x256_S1x64x256_3_0_0 : ∀ a, (![3, 0, 0] : Fin 3 → Nat) a + S1x64x256.size a ≤ S16x256x256.size a
  inb_S16x256x256_S1x64x256_3_64_0 : ∀ a, (![3, 64, 0] : Fin 3 → Nat) a + S1x64x256.size a ≤ S16x256x256.size a
  inb_S16x256x256_S1x64x256_3_128_0 : ∀ a, (![3, 128, 0] : Fin 3 → Nat) a + S1x64x256.size a ≤ S16x256x256.size a
  inb_S16x256x256_S1x64x256_3_192_0 : ∀ a, (![3, 192, 0] : Fin 3 → Nat) a + S1x64x256.size a ≤ S16x256x256.size a
  inb_S16x256x256_S1x64x256_4_0_0 : ∀ a, (![4, 0, 0] : Fin 3 → Nat) a + S1x64x256.size a ≤ S16x256x256.size a
  inb_S16x256x256_S1x64x256_4_64_0 : ∀ a, (![4, 64, 0] : Fin 3 → Nat) a + S1x64x256.size a ≤ S16x256x256.size a
  inb_S16x256x256_S1x64x256_4_128_0 : ∀ a, (![4, 128, 0] : Fin 3 → Nat) a + S1x64x256.size a ≤ S16x256x256.size a
  inb_S16x256x256_S1x64x256_4_192_0 : ∀ a, (![4, 192, 0] : Fin 3 → Nat) a + S1x64x256.size a ≤ S16x256x256.size a
  inb_S16x256x256_S1x64x256_5_0_0 : ∀ a, (![5, 0, 0] : Fin 3 → Nat) a + S1x64x256.size a ≤ S16x256x256.size a
  inb_S16x256x256_S1x64x256_5_64_0 : ∀ a, (![5, 64, 0] : Fin 3 → Nat) a + S1x64x256.size a ≤ S16x256x256.size a
  inb_S16x256x256_S1x64x256_5_128_0 : ∀ a, (![5, 128, 0] : Fin 3 → Nat) a + S1x64x256.size a ≤ S16x256x256.size a
  inb_S16x256x256_S1x64x256_5_192_0 : ∀ a, (![5, 192, 0] : Fin 3 → Nat) a + S1x64x256.size a ≤ S16x256x256.size a
  inb_S16x256x256_S1x64x256_6_0_0 : ∀ a, (![6, 0, 0] : Fin 3 → Nat) a + S1x64x256.size a ≤ S16x256x256.size a
  inb_S16x256x256_S1x64x256_6_64_0 : ∀ a, (![6, 64, 0] : Fin 3 → Nat) a + S1x64x256.size a ≤ S16x256x256.size a
  inb_S16x256x256_S1x64x256_6_128_0 : ∀ a, (![6, 128, 0] : Fin 3 → Nat) a + S1x64x256.size a ≤ S16x256x256.size a
  inb_S16x256x256_S1x64x256_6_192_0 : ∀ a, (![6, 192, 0] : Fin 3 → Nat) a + S1x64x256.size a ≤ S16x256x256.size a
  inb_S16x256x256_S1x64x256_7_0_0 : ∀ a, (![7, 0, 0] : Fin 3 → Nat) a + S1x64x256.size a ≤ S16x256x256.size a
  inb_S16x256x256_S1x64x256_7_64_0 : ∀ a, (![7, 64, 0] : Fin 3 → Nat) a + S1x64x256.size a ≤ S16x256x256.size a
  inb_S16x256x256_S1x64x256_7_128_0 : ∀ a, (![7, 128, 0] : Fin 3 → Nat) a + S1x64x256.size a ≤ S16x256x256.size a
  inb_S16x256x256_S1x64x256_7_192_0 : ∀ a, (![7, 192, 0] : Fin 3 → Nat) a + S1x64x256.size a ≤ S16x256x256.size a
  inb_S16x256x256_S1x64x256_8_0_0 : ∀ a, (![8, 0, 0] : Fin 3 → Nat) a + S1x64x256.size a ≤ S16x256x256.size a
  inb_S16x256x256_S1x64x256_8_64_0 : ∀ a, (![8, 64, 0] : Fin 3 → Nat) a + S1x64x256.size a ≤ S16x256x256.size a
  inb_S16x256x256_S1x64x256_8_128_0 : ∀ a, (![8, 128, 0] : Fin 3 → Nat) a + S1x64x256.size a ≤ S16x256x256.size a
  inb_S16x256x256_S1x64x256_8_192_0 : ∀ a, (![8, 192, 0] : Fin 3 → Nat) a + S1x64x256.size a ≤ S16x256x256.size a
  inb_S16x256x256_S1x64x256_9_0_0 : ∀ a, (![9, 0, 0] : Fin 3 → Nat) a + S1x64x256.size a ≤ S16x256x256.size a
  inb_S16x256x256_S1x64x256_9_64_0 : ∀ a, (![9, 64, 0] : Fin 3 → Nat) a + S1x64x256.size a ≤ S16x256x256.size a
  inb_S16x256x256_S1x64x256_9_128_0 : ∀ a, (![9, 128, 0] : Fin 3 → Nat) a + S1x64x256.size a ≤ S16x256x256.size a
  inb_S16x256x256_S1x64x256_9_192_0 : ∀ a, (![9, 192, 0] : Fin 3 → Nat) a + S1x64x256.size a ≤ S16x256x256.size a
  inb_S16x256x256_S1x64x256_10_0_0 : ∀ a, (![10, 0, 0] : Fin 3 → Nat) a + S1x64x256.size a ≤ S16x256x256.size a
  inb_S16x256x256_S1x64x256_10_64_0 : ∀ a, (![10, 64, 0] : Fin 3 → Nat) a + S1x64x256.size a ≤ S16x256x256.size a
  inb_S16x256x256_S1x64x256_10_128_0 : ∀ a, (![10, 128, 0] : Fin 3 → Nat) a + S1x64x256.size a ≤ S16x256x256.size a
  inb_S16x256x256_S1x64x256_10_192_0 : ∀ a, (![10, 192, 0] : Fin 3 → Nat) a + S1x64x256.size a ≤ S16x256x256.size a
  inb_S16x256x256_S1x64x256_11_0_0 : ∀ a, (![11, 0, 0] : Fin 3 → Nat) a + S1x64x256.size a ≤ S16x256x256.size a
  inb_S16x256x256_S1x64x256_11_64_0 : ∀ a, (![11, 64, 0] : Fin 3 → Nat) a + S1x64x256.size a ≤ S16x256x256.size a
  inb_S16x256x256_S1x64x256_11_128_0 : ∀ a, (![11, 128, 0] : Fin 3 → Nat) a + S1x64x256.size a ≤ S16x256x256.size a
  inb_S16x256x256_S1x64x256_11_192_0 : ∀ a, (![11, 192, 0] : Fin 3 → Nat) a + S1x64x256.size a ≤ S16x256x256.size a
  inb_S16x256x256_S1x64x256_12_0_0 : ∀ a, (![12, 0, 0] : Fin 3 → Nat) a + S1x64x256.size a ≤ S16x256x256.size a
  inb_S16x256x256_S1x64x256_12_64_0 : ∀ a, (![12, 64, 0] : Fin 3 → Nat) a + S1x64x256.size a ≤ S16x256x256.size a
  inb_S16x256x256_S1x64x256_12_128_0 : ∀ a, (![12, 128, 0] : Fin 3 → Nat) a + S1x64x256.size a ≤ S16x256x256.size a
  inb_S16x256x256_S1x64x256_12_192_0 : ∀ a, (![12, 192, 0] : Fin 3 → Nat) a + S1x64x256.size a ≤ S16x256x256.size a
  inb_S16x256x256_S1x64x256_13_0_0 : ∀ a, (![13, 0, 0] : Fin 3 → Nat) a + S1x64x256.size a ≤ S16x256x256.size a
  inb_S16x256x256_S1x64x256_13_64_0 : ∀ a, (![13, 64, 0] : Fin 3 → Nat) a + S1x64x256.size a ≤ S16x256x256.size a
  inb_S16x256x256_S1x64x256_13_128_0 : ∀ a, (![13, 128, 0] : Fin 3 → Nat) a + S1x64x256.size a ≤ S16x256x256.size a
  inb_S16x256x256_S1x64x256_13_192_0 : ∀ a, (![13, 192, 0] : Fin 3 → Nat) a + S1x64x256.size a ≤ S16x256x256.size a
  inb_S16x256x256_S1x64x256_14_0_0 : ∀ a, (![14, 0, 0] : Fin 3 → Nat) a + S1x64x256.size a ≤ S16x256x256.size a
  inb_S16x256x256_S1x64x256_14_64_0 : ∀ a, (![14, 64, 0] : Fin 3 → Nat) a + S1x64x256.size a ≤ S16x256x256.size a
  inb_S16x256x256_S1x64x256_14_128_0 : ∀ a, (![14, 128, 0] : Fin 3 → Nat) a + S1x64x256.size a ≤ S16x256x256.size a
  inb_S16x256x256_S1x64x256_14_192_0 : ∀ a, (![14, 192, 0] : Fin 3 → Nat) a + S1x64x256.size a ≤ S16x256x256.size a
  inb_S16x256x256_S1x64x256_15_0_0 : ∀ a, (![15, 0, 0] : Fin 3 → Nat) a + S1x64x256.size a ≤ S16x256x256.size a
  inb_S16x256x256_S1x64x256_15_64_0 : ∀ a, (![15, 64, 0] : Fin 3 → Nat) a + S1x64x256.size a ≤ S16x256x256.size a
  inb_S16x256x256_S1x64x256_15_128_0 : ∀ a, (![15, 128, 0] : Fin 3 → Nat) a + S1x64x256.size a ≤ S16x256x256.size a
  inb_S16x256x256_S1x64x256_15_192_0 : ∀ a, (![15, 192, 0] : Fin 3 → Nat) a + S1x64x256.size a ≤ S16x256x256.size a
  shapeCasts_S1024x256x256_S16x64x256x256 : S1024x256x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S1024x256x256.size a
  hwx0_0 : ∀ i : grid0.Coords, EltTy.bits .f32 = 32 ∨ (Rect.block (s := S1024x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S1024x256x256.size a
  hwx0_1 : ∀ i : grid0.Coords, EltTy.bits .f32 = 32 ∨ (Rect.block (s := S1024x256x256) S16x256x256.size (cc0_transform_1 i) (hinb0_1 i)).WholeWords (EltTy.packing .f32)

variable [Facts₀]

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S16x64x128x2x128x2 : Shape := ⟨6, ![16, 64, 128, 2, 128, 2]⟩
abbrev S_ : Shape := ⟨0, ![]⟩
abbrev S16x64x128x128 : Shape := ⟨4, ![16, 64, 128, 128]⟩
abbrev S16x64x128x1x128x1 : Shape := ⟨6, ![16, 64, 128, 1, 128, 1]⟩

abbrev nBuf : Space → Nat
  | .hbm => 14
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x64x128x2x128x2, .f32⟩
  | .hbm, ⟨2, _⟩ => ⟨S_, .f32⟩
  | .hbm, ⟨3, _⟩ => ⟨S16x64x128x128, .f32⟩
  | .hbm, ⟨4, _⟩ => ⟨S16x64x128x1x128x1, .f32⟩
  | .hbm, ⟨5, _⟩ => ⟨S16x64x128x2x128x2, .f32⟩
  | .hbm, ⟨6, _⟩ => ⟨S16x64x128x2x128x2, .f32⟩
  | .hbm, ⟨7, _⟩ => ⟨S16x64x128x2x128x2, .f32⟩
  | .hbm, ⟨8, _⟩ => ⟨S_, .f32⟩
  | .hbm, ⟨9, _⟩ => ⟨S16x64x128x128, .f32⟩
  | .hbm, ⟨10, _⟩ => ⟨S16x64x128x1x128x1, .f32⟩
  | .hbm, ⟨11, _⟩ => ⟨S16x64x128x2x128x2, .f32⟩
  | .hbm, ⟨12, _⟩ => ⟨S16x64x128x2x128x2, .f32⟩
  | .hbm, ⟨13, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  shapeCasts_S16x64x256x256_S16x64x128x2x128x2 : S16x64x256x256.ShapeCasts S16x64x128x2x128x2
  reducesTo_S16x64x128x2x128x2_S16x64x128x128_d3_5 : S16x64x128x2x128x2.ReducesTo [3, 5] S16x64x128x128
  h_S_ : 0 < S_.numel
  bcast_S16x64x128x128_S16x64x128x1x128x1_0_1_2_4 : S16x64x128x128.BroadcastsInDim S16x64x128x1x128x1 (![0, 1, 2, 4] : Fin 4 → Fin S16x64x128x1x128x1.rank)
  bcast_S16x64x128x1x128x1_S16x64x128x2x128x2_0_1_2_3_4_5 : S16x64x128x1x128x1.BroadcastsInDim S16x64x128x2x128x2 (![0, 1, 2, 3, 4, 5] : Fin 6 → Fin S16x64x128x2x128x2.rank)
  shapeCasts_S16x64x128x2x128x2_S16x64x256x256 : S16x64x128x2x128x2.ShapeCasts S16x64x256x256

variable [Facts₀]

class Facts : Prop extends Facts₀ where

variable [Facts]
-- ==== Proof.PatchSoftmax.lean ====
/-
  Softmax over the aligned 2×2 patches of the last two axes of an array of extended reals.

  A position i of an axis of even extent lies in exactly one aligned pair {2k, 2k+1}; `mate i` is the other position
  of that pair. The patch of an entry (…, r, l) is {r, mate r} × {l, mate l}, and the patch softmax of the entry is
      exp x(r,l) · 1 / ((exp x(r,l) + exp x(r, mate l)) + (exp x(mate r, l) + exp x(mate r, mate l))).
  Subtracting one real number M from all four entries of a patch before exponentiating changes nothing when the
  four entries are real: exp(x − M) = exp x · exp(−M), and the positive real factor exp(−M) cancels between the
  numerator and the sum (`shifted_quotient`). That is the only law the certificate needs, and it does need the
  entries to be real: at an infinite entry x − M is not defined by a cancellation.
-/
import Idealize.ShloMosaic.PureOps.Ideal.Laws
import Idealize.ShloMosaic.Lib.ValueIdx
import Idealize.ShloMosaic.Lib.IdealHost

noncomputable section

namespace Cert.PatchSoftmax

open Idealize.ShloMosaic Idealize.ShloMosaic.ValueIdx

/-- The other position of the aligned pair {2k, 2k+1} that holds `i`. -/
def mate {n : ℕ} (hn : n % 2 = 0) (i : Fin n) : Fin n :=
  ⟨if i.val % 2 = 0 then i.val + 1 else i.val - 1, by have := i.isLt; split <;> omega⟩

theorem mate_val {n : ℕ} (hn : n % 2 = 0) (i : Fin n) :
    (mate hn i).val = if i.val % 2 = 0 then i.val + 1 else i.val - 1 := rfl

/-- The patch softmax of the entry `x0` whose patch holds, besides it, `x1` (same row), `x2` (same column) and `x3`. -/
def cell (x0 x1 x2 x3 : EReal) : EReal :=
  Ideal.exp x0 * Ideal.div 1 ((Ideal.exp x0 + Ideal.exp x1) + (Ideal.exp x2 + Ideal.exp x3))

/-- The patch softmax of a rank-3 array [n0, n1, n2] over its last two axes, at the entry (a, b, c). -/
def soft3 {n0 n1 n2 : ℕ} (h1 : n1 % 2 = 0) (h2 : n2 % 2 = 0) (y : (⟨3, ![n0, n1, n2]⟩ : Shape).Idx → EReal)
    (a : Fin n0) (b : Fin n1) (c : Fin n2) : EReal :=
  cell (y (ix3 a b c)) (y (ix3 a b (mate h2 c))) (y (ix3 a (mate h1 b) c)) (y (ix3 a (mate h1 b) (mate h2 c)))

/-- The same as a whole array. -/
def soft3Arr {n0 n1 n2 : ℕ} (h1 : n1 % 2 = 0) (h2 : n2 % 2 = 0) (y : (⟨3, ![n0, n1, n2]⟩ : Shape).Idx → EReal) :
    (⟨3, ![n0, n1, n2]⟩ : Shape).Idx → EReal :=
  fun j => soft3 h1 h2 y (j 0) (j 1) (j 2)

/-- The patch softmax of a rank-4 array [n0, n1, n2, n3] over its last two axes, at the entry (a, b, c, d). -/
def soft4 {n0 n1 n2 n3 : ℕ} (h2 : n2 % 2 = 0) (h3 : n3 % 2 = 0) (x : (⟨4, ![n0, n1, n2, n3]⟩ : Shape).Idx → EReal)
    (a : Fin n0) (b : Fin n1) (c : Fin n2) (d : Fin n3) : EReal :=
  cell (x (ix4 a b c d)) (x (ix4 a b c (mate h3 d))) (x (ix4 a b (mate h2 c) d)) (x (ix4 a b (mate h2 c) (mate h3 d)))

/-- The same as a whole array. -/
def soft4Arr {n0 n1 n2 n3 : ℕ} (h2 : n2 % 2 = 0) (h3 : n3 % 2 = 0) (x : (⟨4, ![n0, n1, n2, n3]⟩ : Shape).Idx → EReal) :
    (⟨4, ![n0, n1, n2, n3]⟩ : Shape).Idx → EReal :=
  fun j => soft4 h2 h3 x (j 0) (j 1) (j 2) (j 3)

/-- For four real entries and a real shift M: exp(x0 − M) divided by the sum of the four exp(x_k − M) is the patch
    softmax of x0. The sum may be given in any order and grouping: it enters as an extended real `s` known to be the
    real number Σ exp(x_k − M). -/
theorem shifted_quotient (r0 r1 r2 r3 M : ℝ) (s : EReal)
    (hs : s = ((Real.exp (r0 - M) + Real.exp (r1 - M) + Real.exp (r2 - M) + Real.exp (r3 - M) : ℝ) : EReal)) :
    Ideal.div (Ideal.exp ((r0 : EReal) - (M : EReal))) s = cell (r0 : EReal) (r1 : EReal) (r2 : EReal) (r3 : EReal) := by
  have hpos : 0 < Real.exp (r0 - M) + Real.exp (r1 - M) + Real.exp (r2 - M) + Real.exp (r3 - M) := by positivity
  have hpos' : 0 < Real.exp r0 + Real.exp r1 + (Real.exp r2 + Real.exp r3) := by positivity
  have e1 : ((r0 : EReal) - (M : EReal)) = ((r0 - M : ℝ) : EReal) := (EReal.coe_sub r0 M).symm
  have e2 : (Ideal.exp (r0 : EReal) + Ideal.exp (r1 : EReal)) + (Ideal.exp (r2 : EReal) + Ideal.exp (r3 : EReal))
      = ((Real.exp r0 + Real.exp r1 + (Real.exp r2 + Real.exp r3) : ℝ) : EReal) := by
    simp only [Ideal.exp_coe, EReal.coe_add]
  unfold cell
  rw [hs, e1, e2, Ideal.exp_coe, Ideal.exp_coe, Ideal.div_coe (ne_of_gt hpos), Ideal.div_coe (ne_of_gt hpos'),
    show (1 : EReal) = ((1 : ℝ) : EReal) from rfl, ← EReal.coe_mul, ← EReal.coe_mul, ← EReal.coe_mul]
  refine congrArg _ ?_
  rw [Real.exp_sub, Real.exp_sub, Real.exp_sub, Real.exp_sub]
  have hM : Real.exp M ≠ 0 := (Real.exp_pos M).ne'
  have h0 : Real.exp r0 + Real.exp r1 + (Real.exp r2 + Real.exp r3) ≠ 0 := ne_of_gt hpos'
  field_simp
  ring

end Cert.PatchSoftmax

end
-- ==== Proof.Payload.lean ====
/-
  One store of the kernel body, read at an entry over the extended reals.

  The body works on 64 rows × 256 lanes at a time, viewed as [8, 8, 256] (row r = 8q + s). With e = exp of the
  rows, it forms e + (e at the lane partner) — a rotation by one lane either way, chosen by the lane's parity, reads
  the other lane of the aligned pair — then adds to that the same sum at the row partner (rotation by one sublane,
  chosen by the sublane's parity; 8 is even, so the partner of row 8q + s is 8q + partner of s), and stores
  e · (1 / that sum). At the entry (r, l) that is the patch softmax of the 64 × 256 rows at (r, l).
-/
import proofs.«112671_g32006096290235_feedfinal_483_20_alg».proof.Proof.Gen.KernelIdeal.Skeleton
import proofs.«112671_g32006096290235_feedfinal_483_20_alg».proof.Proof.PatchSoftmax
import Idealize.ShloMosaic.Lib.Pipeline.Value
import Idealize.ShloMosaic.Lib.KernelVsHost
import Idealize.ShloMosaic.Lib.ValueIdx
import Idealize.ShloMosaic.Lib.IdealHost

noncomputable section

namespace Cert.KernelIdeal.Payload

open Idealize.ShloMosaic Idealize.ShloMosaic.ValueIdx Cert.KernelIdeal Cert.KernelIdeal.Gen Cert.PatchSoftmax

/-- Bit 0 of a word is clear exactly when the number is even. -/
theorem even_bit (n : ℕ) (hn : n < 256) :
    IntOp.cmpi .eq (IntOp.andi (BitVec.ofNat 32 n) 1#32) 0#32 = if n % 2 = 0 then 1#1 else 0#1 := by
  have h : IntOp.andi (BitVec.ofNat 32 n) 1#32 = BitVec.ofNat 32 (n % 2) := by
    apply BitVec.eq_of_toNat_eq
    show (BitVec.ofNat 32 n &&& 1#32).toNat = _
    rw [BitVec.toNat_and, show (1#32 : BitVec 32).toNat = 1 from rfl, Nat.and_one_is_mod, BitVec.toNat_ofNat,
      BitVec.toNat_ofNat]
    omega
  rw [h]
  rcases Nat.mod_two_eq_zero_or_one n with e | e
  · rw [e, if_pos rfl]; rfl
  · rw [e, if_neg (by decide)]; rfl

/-- The lane mask is set on the even lanes. -/
theorem lane_mask (q s : Fin 8) (l : Fin 256) : k0_pay2 (ix3 q s l) = if l.val % 2 = 0 then 1#1 else 0#1 :=
  (congrArg (fun z : BitVec 32 => IntOp.cmpi .eq (IntOp.andi z 1#32) 0#32)
    (iota_single_apply .tc S8x8x256 32 (2 : Fin 3) (by decide) (ix3 q s l))).trans (even_bit l.val l.isLt)

/-- The sublane mask is set on the even sublanes. -/
theorem sublane_mask (q s : Fin 8) (l : Fin 256) : k0_pay3 (ix3 q s l) = if s.val % 2 = 0 then 1#1 else 0#1 :=
  (congrArg (fun z : BitVec 32 => IntOp.cmpi .eq (IntOp.andi z 1#32) 0#32)
    (iota_single_apply .tc S8x8x256 32 (1 : Fin 3) (by decide) (ix3 q s l))).trans
      (even_bit s.val (by have := s.isLt; omega))

/-- A rotation of the lanes read at an entry: the operand at the lane the amount brings there. -/
theorem rot_lane {α : Type} (e : S8x8x256.Idx → α) (hr : S8x8x256.Rotates 2 none) (n : BitVec 32) (q s : Fin 8)
    (l l' : Fin 256) (h : l'.val = (l.val + 256 - n.toNat % 256) % 256) :
    dynamicRotate 2 n none e hr (ix3 q s l) = e (ix3 q s l') := by
  refine dynamicRotate_apply (2 : Fin 3) n e hr _ _ (fun b => ?_)
  by_cases hb : b = 2
  · subst hb; rw [if_pos rfl]; exact h
  · rw [if_neg hb]
    match b, hb with
    | ⟨0, _⟩, _ => rfl
    | ⟨1, _⟩, _ => rfl
    | ⟨2, _⟩, hb => exact absurd rfl hb

/-- A rotation of the sublanes read at an entry. -/
theorem rot_sublane {α : Type} (e : S8x8x256.Idx → α) (hr : S8x8x256.Rotates 1 none) (n : BitVec 32) (q : Fin 8)
    (s s' : Fin 8) (l : Fin 256) (h : s'.val = (s.val + 8 - n.toNat % 8) % 8) :
    dynamicRotate 1 n none e hr (ix3 q s l) = e (ix3 q s' l) := by
  refine dynamicRotate_apply (1 : Fin 3) n e hr _ _ (fun b => ?_)
  by_cases hb : b = 1
  · subst hb; rw [if_pos rfl]; exact h
  · rw [if_neg hb]
    match b, hb with
    | ⟨0, _⟩, _ => rfl
    | ⟨1, _⟩, hb => exact absurd rfl hb
    | ⟨2, _⟩, _ => rfl

/-- Rotating the lanes by 255 on the even lanes and by 1 on the odd ones reads the other lane of the aligned pair. -/
theorem lane_swap {α : Type} (e : S8x8x256.Idx → α) (hr : S8x8x256.Rotates 2 none) (q s : Fin 8) (l : Fin 256) :
    select k0_pay2 (dynamicRotate 2 255#32 none e hr) (dynamicRotate 2 1#32 none e hr) (ix3 q s l)
      = e (ix3 q s (mate (by decide) l)) := by
  show Scalar.select (k0_pay2 (ix3 q s l)) _ _ = _
  rw [lane_mask]
  have hl := l.isLt
  by_cases hp : l.val % 2 = 0
  · rw [if_pos hp, select_one]
    refine rot_lane e hr 255#32 q s l _ ?_
    rw [mate_val, if_pos hp]
    show l.val + 1 = (l.val + 256 - 255 % 256) % 256
    omega
  · rw [if_neg hp, select_zero]
    refine rot_lane e hr 1#32 q s l _ ?_
    rw [mate_val, if_neg hp]
    show l.val - 1 = (l.val + 256 - 1 % 256) % 256
    omega

/-- Rotating the sublanes by 7 on the even sublanes and by 1 on the odd ones reads the other sublane of the pair. -/
theorem sublane_swap {α : Type} (e : S8x8x256.Idx → α) (hr : S8x8x256.Rotates 1 none) (q s : Fin 8) (l : Fin 256) :
    select k0_pay3 (dynamicRotate 1 7#32 none e hr) (dynamicRotate 1 1#32 none e hr) (ix3 q s l)
      = e (ix3 q (mate (by decide) s) l) := by
  show Scalar.select (k0_pay3 (ix3 q s l)) _ _ = _
  rw [sublane_mask]
  have hs := s.isLt
  by_cases hp : s.val % 2 = 0
  · rw [if_pos hp, select_one]
    refine rot_sublane e hr 7#32 q s _ l ?_
    rw [mate_val, if_pos hp]
    show s.val + 1 = (s.val + 8 - 7 % 8) % 8
    omega
  · rw [if_neg hp, select_zero]
    refine rot_sublane e hr 1#32 q s _ l ?_
    rw [mate_val, if_neg hp]
    show s.val - 1 = (s.val + 8 - 1 % 8) % 8
    omega

/-- The 64 rows viewed as 8 groups of 8: entry (q, s, l) of the view is row 8q + s. -/
theorem rows_in {α : Type} (v : S1x64x256.Idx → α) (h1 : S1x64x256.ShapeCasts S64x256) (h2 : S64x256.ShapeCasts S8x8x256)
    (q s : Fin 8) (l : Fin 256) :
    shapeCast S8x8x256 (shapeCast S64x256 v h1) h2 (ix3 q s l)
      = v (ix3 (0 : Fin 1) (⟨8 * q.val + s.val, by have := q.isLt; have := s.isLt; omega⟩ : Fin 64) l) := by
  have hq := q.isLt; have hs := s.isLt; have hl := l.isLt
  refine (shapeCast_apply _ h2 (ix3 q s l)
    (ix2 (⟨8 * q.val + s.val, by omega⟩ : Fin 64) l) ?_).trans ?_
  · rw [Shape.rowMajor_val_three, Shape.rowMajor_val_two]
    show (8 * q.val + s.val) * 256 + l.val = (q.val * 8 + s.val) * 256 + l.val
    omega
  · refine shapeCast_apply v h1 _ _ ?_
    rw [Shape.rowMajor_val_three, Shape.rowMajor_val_two]
    show ((0 : ℕ) * 64 + (8 * q.val + s.val)) * 256 + l.val = (8 * q.val + s.val) * 256 + l.val
    omega

/-- And back: row r of the 64 is entry (r / 8, r % 8) of the grouped view. -/
theorem rows_out {α : Type} (w : S8x8x256.Idx → α) (h1 : S8x8x256.ShapeCasts S64x256) (h2 : S64x256.ShapeCasts S1x64x256)
    (a : Fin 1) (r : Fin 64) (l : Fin 256) :
    shapeCast S1x64x256 (shapeCast S64x256 w h1) h2 (ix3 a r l)
      = w (ix3 (⟨r.val / 8, by have := r.isLt; omega⟩ : Fin 8) (⟨r.val % 8, by omega⟩ : Fin 8) l) := by
  have ha := a.isLt; have hr := r.isLt; have hl := l.isLt
  refine (shapeCast_apply _ h2 (ix3 a r l) (ix2 r l) ?_).trans ?_
  · rw [Shape.rowMajor_val_three, Shape.rowMajor_val_two]
    show r.val * 256 + l.val = (a.val * 64 + r.val) * 256 + l.val
    omega
  · refine shapeCast_apply w h1 _ _ ?_
    rw [Shape.rowMajor_val_three, Shape.rowMajor_val_two]
    show (r.val / 8 * 8 + r.val % 8) * 256 + l.val = r.val * 256 + l.val
    omega

/-- The arithmetic of one store on the grouped view [8, 8, 256], at the entry (q, s, l): the patch softmax there. -/
theorem grouped_apply (u : FVec Ideal S8x8x256 .f32) (hr2 : S8x8x256.Rotates 2 none) (hr1 : S8x8x256.Rotates 1 none)
    (q s : Fin 8) (l : Fin 256) :
    mulf (exp u) (divf (broadcast S8x8x256 (Scalar.ofBits (F := Ideal) .f32 0x3F800000#32))
      (addf (addf (exp u) (select k0_pay2 (dynamicRotate 2 255#32 none (exp u) hr2) (dynamicRotate 2 1#32 none (exp u) hr2)))
        (select k0_pay3
          (dynamicRotate 1 7#32 none
            (addf (exp u) (select k0_pay2 (dynamicRotate 2 255#32 none (exp u) hr2) (dynamicRotate 2 1#32 none (exp u) hr2))) hr1)
          (dynamicRotate 1 1#32 none
            (addf (exp u) (select k0_pay2 (dynamicRotate 2 255#32 none (exp u) hr2) (dynamicRotate 2 1#32 none (exp u) hr2))) hr1))))
      (ix3 q s l)
    = soft3 (n0 := 8) (by decide) (by decide) u q s l := by
  have hsum : ∀ (s' : Fin 8) (l' : Fin 256),
      addf (exp u) (select k0_pay2 (dynamicRotate 2 255#32 none (exp u) hr2) (dynamicRotate 2 1#32 none (exp u) hr2)) (ix3 q s' l')
        = Ideal.exp (u (ix3 q s' l')) + Ideal.exp (u (ix3 q s' (mate (by decide) l'))) := fun s' l' =>
    congrArg (fun z => Ideal.exp (u (ix3 q s' l')) + z) (lane_swap (exp u) hr2 q s' l')
  show Ideal.exp (u (ix3 q s l)) * Ideal.div (Ideal.ofBits .f32 0x3F800000#32)
      (addf (exp u) (select k0_pay2 (dynamicRotate 2 255#32 none (exp u) hr2) (dynamicRotate 2 1#32 none (exp u) hr2)) (ix3 q s l)
        + select k0_pay3 (dynamicRotate 1 7#32 none _ hr1) (dynamicRotate 1 1#32 none _ hr1) (ix3 q s l)) = _
  rw [sublane_swap _ hr1 q s l, hsum, hsum, Ideal.ofBits_one_f32]
  rfl

/-- ONE STORE of the body: from the 64 × 256 rows `v` it loaded, the stored rows are the patch softmax of `v`. -/
theorem store_apply (v : Vec Ideal S1x64x256 .f32) (a : Fin 1) (r : Fin 64) (l : Fin 256) :
    k0_pay8 (F := Ideal) k0_pay2 k0_pay3 v (ix3 a r l) = soft3 (n0 := 1) (by decide) (by decide) v a r l := by
  have hr := r.isLt
  have ha : a = 0 := Subsingleton.elim _ _
  subst ha
  unfold k0_pay8
  refine (rows_out _ _ _ (0 : Fin 1) r l).trans ?_
  refine (grouped_apply _ _ _ _ _ l).trans ?_
  unfold soft3
  rw [rows_in, rows_in, rows_in, rows_in]
  have e0 : (⟨8 * (r.val / 8) + r.val % 8, by omega⟩ : Fin 64) = r := Fin.ext (by show 8 * (r.val / 8) + r.val % 8 = r.val; omega)
  have e1 : (⟨8 * (r.val / 8) + (mate (n := 8) (by decide) ⟨r.val % 8, by omega⟩).val, by
      rw [mate_val]; show 8 * (r.val / 8) + (if r.val % 8 % 2 = 0 then r.val % 8 + 1 else r.val % 8 - 1) < 64; split <;> omega⟩ : Fin 64)
      = mate (n := 64) (by decide) r := Fin.ext (by
    show 8 * (r.val / 8) + (if r.val % 8 % 2 = 0 then r.val % 8 + 1 else r.val % 8 - 1) = if r.val % 2 = 0 then r.val + 1 else r.val - 1
    split <;> split <;> omega)
  rw [e0, e1]

end Cert.KernelIdeal.Payload

end
-- ==== Proof.PatchSubBox.lean ====
/-
  The patch softmax of a sub-box is the sub-box of the patch softmax, when the box starts at an even row and an even
  column and has even extents: an aligned pair of the box is an aligned pair of the array, so the mate of a position
  inside the box is the mate of its position in the array.
-/
import proofs.«112671_g32006096290235_feedfinal_483_20_alg».proof.Proof.PatchSoftmax

noncomputable section

namespace Cert.PatchSoftmax

open Idealize.ShloMosaic Idealize.ShloMosaic.ValueIdx

/-- A position and its offset image have offset mates, for an even offset. -/
theorem mate_offset {n m : ℕ} (hn : n % 2 = 0) (hm : m % 2 = 0) (o : ℕ) (ho : o % 2 = 0) (c : Fin m) (C : Fin n)
    (hC : C.val = o + c.val) : (mate hn C).val = o + (mate hm c).val := by
  have hc := c.isLt
  rw [mate_val, mate_val, hC]
  split <;> split <;> omega

/-- The patch softmax of the sub-box `emb` of `y` (entry j of the box is entry off + j of the array, row and column
    offsets even) at (a, b, c) is the patch softmax of `y` at the image (A, B, C) of (a, b, c). -/
theorem soft3_subbox {n0 n1 n2 m0 m1 m2 : ℕ} (h1 : n1 % 2 = 0) (h2 : n2 % 2 = 0) (k1 : m1 % 2 = 0) (k2 : m2 % 2 = 0)
    (y : (⟨3, ![n0, n1, n2]⟩ : Shape).Idx → EReal)
    (emb : (⟨3, ![m0, m1, m2]⟩ : Shape).Idx → (⟨3, ![n0, n1, n2]⟩ : Shape).Idx) (off : Fin 3 → ℕ)
    (hemb : ∀ (j : (⟨3, ![m0, m1, m2]⟩ : Shape).Idx) (e : Fin 3), (emb j e).val = off e + (j e).val)
    (ho1 : off 1 % 2 = 0) (ho2 : off 2 % 2 = 0)
    (a : Fin m0) (b : Fin m1) (c : Fin m2) (A : Fin n0) (B : Fin n1) (C : Fin n2)
    (hA : A.val = off 0 + a.val) (hB : B.val = off 1 + b.val) (hC : C.val = off 2 + c.val) :
    soft3 k1 k2 (fun j => y (emb j)) a b c = soft3 h1 h2 y A B C := by
  have key : ∀ (b' : Fin m1) (c' : Fin m2) (B' : Fin n1) (C' : Fin n2), B'.val = off 1 + b'.val →
      C'.val = off 2 + c'.val → emb (ix3 a b' c') = ix3 A B' C' := by
    intro b' c' B' C' hB' hC'
    funext e; apply Fin.ext
    match e with
    | ⟨0, _⟩ => exact (hemb (ix3 a b' c') 0).trans hA.symm
    | ⟨1, _⟩ => exact (hemb (ix3 a b' c') 1).trans hB'.symm
    | ⟨2, _⟩ => exact (hemb (ix3 a b' c') 2).trans hC'.symm
  have hB' := mate_offset h1 k1 (off 1) ho1 b B hB
  have hC' := mate_offset h2 k2 (off 2) ho2 c C hC
  show cell (y (emb (ix3 a b c))) (y (emb (ix3 a b (mate k2 c)))) (y (emb (ix3 a (mate k1 b) c)))
      (y (emb (ix3 a (mate k1 b) (mate k2 c))))
    = cell (y (ix3 A B C)) (y (ix3 A B (mate h2 C))) (y (ix3 A (mate h1 B) C)) (y (ix3 A (mate h1 B) (mate h2 C)))
  rw [key b c B C hB hC, key b (mate k2 c) B (mate h2 C) hB hC', key (mate k1 b) c (mate h1 B) C hB' hC,
    key (mate k1 b) (mate k2 c) (mate h1 B) (mate h2 C) hB' hC']

end Cert.PatchSoftmax

end
-- ==== Proof.Block.lean ====
/-
  What the body leaves in the output block, over the extended reals.

  The body handles a block [16, 256, 256] in 64 pieces of 64 rows × 256 lanes: image k, rows 64j … 64j + 63. Each
  piece starts at an even row and at lane 0 and holds whole aligned pairs, so the patch softmax of the piece is the
  piece of the patch softmax of the block (`soft3_subbox`); the 64 pieces tile the block. Hence the output block is
  the patch softmax of the input block, entry by entry.
-/
import proofs.«112671_g32006096290235_feedfinal_483_20_alg».proof.Proof.Gen.KernelIdeal.Frame
import proofs.«112671_g32006096290235_feedfinal_483_20_alg».proof.Proof.Payload
import proofs.«112671_g32006096290235_feedfinal_483_20_alg».proof.Proof.PatchSubBox
import Idealize.ShloMosaic.Lib.Pipeline.Value

set_option maxRecDepth 16384

noncomputable section

namespace Cert.KernelIdeal.Block

open Idealize.ShloMosaic Idealize.ShloMosaic.ValueIdx Cert.KernelIdeal Cert.KernelIdeal.Gen Cert.PatchSoftmax
open Cert.KernelIdeal.Payload

/-- ONE PIECE: the rows stored through a 64 × 256 rectangle at an even row offset and an even lane offset are the
    patch softmax of the whole block, read at the rectangle's entries. -/
theorem piece_eq (x0 : Vec Ideal S16x256x256 .f32) (off : Fin 3 → ℕ)
    (inb : ∀ a, off a + S1x64x256.size a ≤ S16x256x256.size a) (ho1 : off 1 % 2 = 0) (ho2 : off 2 % 2 = 0)
    (xl : S1x64x256.Idx) :
    k0_pay8 (F := Ideal) k0_pay2 k0_pay3 (View.ld x0 (Rect.unit (s := S16x256x256) off S1x64x256.size inb)) xl
      = soft3Arr (n0 := 16) (n1 := 256) (n2 := 256) (by decide) (by decide) x0
          ((Rect.unit (s := S16x256x256) off S1x64x256.size inb).emb xl) := by
  obtain ⟨a, r, l, rfl⟩ : ∃ (a : Fin 1) (r : Fin 64) (l : Fin 256), xl = ix3 a r l := ⟨xl 0, xl 1, xl 2, eq_ix3 xl⟩
  refine (store_apply _ a r l).trans ?_
  exact soft3_subbox (n0 := 16) (n1 := 256) (n2 := 256) (m0 := 1) (m1 := 64) (m2 := 256) (by decide) (by decide)
    (by decide) (by decide) x0 (fun j => (Rect.unit (s := S16x256x256) off S1x64x256.size inb).idx j) off
    (fun j e => by show off e + 1 * (j e).val = off e + (j e).val; omega) ho1 ho2 a r l _ _ _
    (by show off 0 + 1 * a.val = off 0 + a.val; omega) (by show off 1 + 1 * r.val = off 1 + r.val; omega)
    (by show off 2 + 1 * l.val = off 2 + l.val; omega)

/-- THE OUTPUT BLOCK: the patch softmax of the input block. -/
theorem block_eq (x0 : Vec Ideal S16x256x256 .f32) :
    out0_1 (F := Ideal) x0 = soft3Arr (n0 := 16) (n1 := 256) (n2 := 256) (by decide) (by decide) x0 := by
  funext y
  unfold out0_1
  refine View.canon_apply_of_pieces (Val := Elt Ideal) (S := S16x256x256) (e := .f32)
    (soft3Arr (n0 := 16) (n1 := 256) (n2 := 256) (by decide) (by decide) x0) _ ?_ y
    (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  repeat' (first
    | exact fun _ h => (List.not_mem_nil h).elim
    | refine List.forall_mem_cons.2 ⟨fun xl => piece_eq x0 _ _ (by decide) (by decide) xl, ?_⟩)

end Cert.KernelIdeal.Block

end
-- ==== Proof.PatchFlatten.lean ====
/-
  Merging the two leading axes of [16, 64, 256, 256] into [1024, 256, 256] touches neither of the last two axes, so the
  patch softmax over the last two axes may be taken before or after it: image (b, c) is image 64b + c of the merged
  array, with the same rows and columns.
-/
import proofs.«112671_g32006096290235_feedfinal_483_20_alg».proof.Proof.PatchSoftmax
import Idealize.ShloMosaic.Lib.Pipeline.Value

noncomputable section

namespace Cert.PatchSoftmax

open Idealize.ShloMosaic Idealize.ShloMosaic.ValueIdx

abbrev A4 : Shape := ⟨4, ![16, 64, 256, 256]⟩
abbrev A3 : Shape := ⟨3, ![1024, 256, 256]⟩

/-- Entry (64b + c, h, w) of the merged array is entry (b, c, h, w). -/
theorem merged_apply (x : A4.Idx → EReal) (h43 : A4.ShapeCasts A3) (b : Fin 16) (c : Fin 64) (h w : Fin 256) :
    shapeCast A3 x h43 (ix3 (⟨64 * b.val + c.val, by have := b.isLt; have := c.isLt; omega⟩ : Fin 1024) h w)
      = x (ix4 b c h w) := by
  have hb := b.isLt; have hc := c.isLt; have hh := h.isLt; have hw := w.isLt
  refine shapeCast_apply x h43 _ _ ?_
  rw [Shape.rowMajor_val_four, Shape.rowMajor_val_three]
  show ((b.val * 64 + c.val) * 256 + h.val) * 256 + w.val = ((64 * b.val + c.val) * 256 + h.val) * 256 + w.val
  omega

/-- Merge the leading axes, take the patch softmax, split them again: the patch softmax of the four-axis array. -/
theorem soft_merged (x : A4.Idx → EReal) (h43 : A4.ShapeCasts A3) (h34 : A3.ShapeCasts A4) :
    shapeCast A4 (soft3Arr (n0 := 1024) (n1 := 256) (n2 := 256) (by decide) (by decide) (shapeCast A3 x h43)) h34
      = soft4Arr (n0 := 16) (n1 := 64) (n2 := 256) (n3 := 256) (by decide) (by decide) x := by
  funext o
  obtain ⟨b, c, h, w, rfl⟩ : ∃ (b : Fin 16) (c : Fin 64) (h w : Fin 256), o = ix4 b c h w := ⟨o 0, o 1, o 2, o 3, eq_ix4 o⟩
  have hb := b.isLt; have hc := c.isLt; have hh := h.isLt; have hw := w.isLt
  refine (shapeCast_apply _ h34 (ix4 b c h w) (ix3 (⟨64 * b.val + c.val, by omega⟩ : Fin 1024) h w) ?_).trans ?_
  · rw [Shape.rowMajor_val_four, Shape.rowMajor_val_three]
    show ((64 * b.val + c.val) * 256 + h.val) * 256 + w.val = ((b.val * 64 + c.val) * 256 + h.val) * 256 + w.val
    omega
  · show cell (shapeCast A3 x h43 (ix3 _ h w)) (shapeCast A3 x h43 (ix3 _ h (mate _ w)))
        (shapeCast A3 x h43 (ix3 _ (mate _ h) w)) (shapeCast A3 x h43 (ix3 _ (mate _ h) (mate _ w)))
      = cell (x (ix4 b c h w)) (x (ix4 b c h (mate _ w))) (x (ix4 b c (mate _ h) w)) (x (ix4 b c (mate _ h) (mate _ w)))
    rw [merged_apply, merged_apply, merged_apply, merged_apply]

end Cert.PatchSoftmax

end
-- ==== Proof.ArrayValue.lean ====
/-
  The kernel's result array, over the extended reals.

  Grid point t handles images 16t … 16t + 15 of the merged array [1024, 256, 256]: whole images, so the patch softmax
  of the block is the block of the patch softmax of the array (`soft3_subbox`, offsets (16t, 0, 0)), and the 64 blocks
  tile the array. The host merges the two leading axes before the call and splits them after it, which commutes with
  the patch softmax (`soft_merged`). So the result is the patch softmax of the argument over its last two axes.
-/
import proofs.«112671_g32006096290235_feedfinal_483_20_alg».proof.Proof.Gen.KernelIdeal.Frame
import proofs.«112671_g32006096290235_feedfinal_483_20_alg».proof.Proof.Block
import proofs.«112671_g32006096290235_feedfinal_483_20_alg».proof.Proof.PatchFlatten
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.ArrayValue

open Idealize.ShloMosaic.ValueIdx Cert.KernelIdeal Cert.KernelIdeal.Gen Cert.PatchSoftmax Cert.KernelIdeal.Block

variable (m : (ℓ : Loc nD τ sig) → Buf (Elt Ideal) ℓ) (ρ : Dev nD → PrngReg)

/-- The printed index maps, decided over the grid: point t's block of either window starts at image 16t, row 0, lane 0. -/
theorem index_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The merged array the call reads, as the region finds it. -/
abbrev merged (c : Dev nD) : S1024x256x256.Idx → EReal := V m c main_v0

/-- What the result array of the call ends holding: the patch softmax of the merged array. -/
abbrev softened (c : Dev nD) : S1024x256x256.Idx → EReal :=
  soft3Arr (n0 := 1024) (n1 := 256) (n2 := 256) (by decide) (by decide) (merged m c)

/-- The input block at point t, entry by entry. -/
theorem iblk_apply (c : Dev nD) (t : Fin cfg0.N) (y : S16x256x256.Idx) :
    (iblk m c 0 t : Vec Ideal S16x256x256 .f32) y = merged m c (((cfg0.win 0).blk t).view.emb y) := by
  unfold iblk
  rw [View.read_apply]
  rfl

/-- WHAT POINT t WRITES BACK is block t of the patch softmax of the merged array. -/
theorem flushed_eq (c : Dev nD) (t : Fin cfg0.N) :
    (dats m 0 c).flushed 1 t = ((cfg0.win 1).blk t).view.read (Elt Ideal) (softened m c) := by
  show (cfg0.win 1).cut (grid0.coords t) ((dats m 0 c).after 1 t) = _
  rw [after0_1, block_eq]
  obtain ⟨e0, e1, e2, e3, e4, e5⟩ := index_facts t
  funext j
  have hfun : (iblk m c 0 t : Vec Ideal S16x256x256 .f32)
      = fun y => merged m c (((cfg0.win 0).blk t).view.emb y) := funext (iblk_apply m c t)
  show soft3 (n0 := 16) (n1 := 256) (n2 := 256) (by decide) (by decide) (iblk m c 0 t) (j 0) (j 1) (j 2)
    = soft3 (n0 := 1024) (n1 := 256) (n2 := 256) (by decide) (by decide) (merged m c)
        (((cfg0.win 1).blk t).view.emb j 0) (((cfg0.win 1).blk t).view.emb j 1) (((cfg0.win 1).blk t).view.emb j 2)
  rw [hfun]
  refine soft3_subbox (n0 := 1024) (n1 := 256) (n2 := 256) (m0 := 16) (m1 := 256) (m2 := 256) (by decide) (by decide)
    (by decide) (by decide) (merged m c) (fun y => ((cfg0.win 0).blk t).view.emb y) ![16 * t.val, 0, 0] ?_ rfl rfl
    (j 0) (j 1) (j 2) _ _ _ ?_ ?_ ?_
  · intro y e
    match e with
    | ⟨0, _⟩ => show win0_0.index t (0 : Fin 3) * 16 + 1 * (y 0).val = 16 * t.val + (y 0).val; rw [e0]; omega
    | ⟨1, _⟩ => show win0_0.index t (1 : Fin 3) * 256 + 1 * (y 1).val = 0 + (y 1).val; rw [e1]; omega
    | ⟨2, _⟩ => show win0_0.index t (2 : Fin 3) * 256 + 1 * (y 2).val = 0 + (y 2).val; rw [e2]; omega
  · show win0_1.index t (0 : Fin 3) * 16 + 1 * (j 0).val = 16 * t.val + (j 0).val; rw [e3]; omega
  · show win0_1.index t (1 : Fin 3) * 256 + 1 * (j 1).val = 0 + (j 1).val; rw [e4]; omega
  · show win0_1.index t (2 : Fin 3) * 256 + 1 * (j 2).val = 0 + (j 2).val; rw [e5]; omega

/-- An entry of the result array is in point t's block iff each coordinate is in the block's range on its axis. -/
theorem mem_blk (t : Fin cfg0.N) (i : S1024x256x256.Idx) :
    i ∈ ((cfg0.win 1).blk t).view.set ↔ ∀ a : Fin 3, win0_1.index t a * S16x256x256.size a ≤ (i a).val
      ∧ (i a).val < win0_1.index t a * S16x256x256.size a + S16x256x256.size a := by
  show i ∈ ((View.whole main_v1).slice (win0_1.rect t)).set ↔ _
  rw [View.set_slice_whole, Rect.mem_set_unit]
  exact Iff.rfl

/-- Image n lies in the block of point n / 16: the blocks cover the result array. -/
theorem cover (i : S1024x256x256.Idx) :
    ∃ t : Fin cfg0.N, (cfg0.win 1).flush t = true ∧ i ∈ ((cfg0.win 1).blk t).view.set := by
  have h0 : (i 0).val < 1024 := (i 0).isLt
  have h1 : (i 1).val < 256 := (i 1).isLt
  have h2 : (i 2).val < 256 := (i 2).isLt
  have hN : cfg0.N = 64 := N_0
  refine ⟨⟨(i 0).val / 16, by rw [hN]; omega⟩, flush0_1 _, ?_⟩
  rw [mem_blk]
  obtain ⟨-, -, -, e3, e4, e5⟩ := index_facts ⟨(i 0).val / 16, by rw [hN]; omega⟩
  intro a
  match a with
  | ⟨0, _⟩ =>
    show win0_1.index _ (0 : Fin 3) * 16 ≤ (i 0).val ∧ (i 0).val < win0_1.index _ (0 : Fin 3) * 16 + 16
    rw [e3]; show (i 0).val / 16 * 16 ≤ (i 0).val ∧ (i 0).val < (i 0).val / 16 * 16 + 16; omega
  | ⟨1, _⟩ =>
    show win0_1.index _ (1 : Fin 3) * 256 ≤ (i 1).val ∧ (i 1).val < win0_1.index _ (1 : Fin 3) * 256 + 256
    rw [e4]; omega
  | ⟨2, _⟩ =>
    show win0_1.index _ (2 : Fin 3) * 256 ≤ (i 2).val ∧ (i 2).val < win0_1.index _ (2 : Fin 3) * 256 + 256
    rw [e5]; omega

/-- THE RESULT ARRAY OF THE CALL after the run: the patch softmax of the merged array. -/
theorem final (c : Dev nD) : (dats m 0 c).arrAt 1 cfg0.N = softened m c :=
  (dats m 0 c).arrAt_eq_of_cover 1 (softened m c) (fun t _ => flushed_eq m c t) (cover)

/-- The merged array is the argument with its two leading axes merged. -/
theorem merged_eq (c : Dev nD) :
    merged m c = shapeCast S1024x256x256 (m ((c : Thread nD τ).loc main_arg0)) shapeCasts_S16x64x256x256_S1024x256x256 := by
  show StableHlo.after hostOps0 (fun b => m (c, b)) (Proc.devRef .tc main_v0) = _
  after_results
  rfl

/-- THE KERNEL'S RESULT: the patch softmax of the argument over its last two axes. -/
theorem result_eq (c : Dev nD) :
    Pipeline.afterTail₀ cfgs (dats m) 0 (V0 m) [hostOps1] c main_v2
      = soft4Arr (n0 := 16) (n1 := 64) (n2 := 256) (n3 := 256) (by decide) (by decide)
          (m ((c : Thread nD τ).loc main_arg0)) := by
  unfold Pipeline.afterTail₀
  show StableHlo.after hostOps1 _ (Proc.devRef .tc main_v2) = _
  after_results
  rw [(Pipeline.withArrays_arr spec0 launch0.win.arr_inj c _ _ 1).trans (final m c)]
  show shapeCast S16x64x256x256 (softened m c) _ = _
  unfold softened
  rw [merged_eq]
  exact soft_merged _ _ _

/-- The frame run re-posted: the result at the patch softmax of the argument, the argument unchanged. -/
theorem run : θ_run defs (onTc (τ := τ) (main (F := Ideal))) ⟨m, fun _ => 0, ρ⟩ fun r => ∀ c : Dev nD,
      r.2.mem ((c : Thread nD τ).loc main_v2)
        = soft4Arr (n0 := 16) (n1 := 64) (n2 := 256) (n3 := 256) (by decide) (by decide) (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.ArrayValue

end
-- ==== Proof.RefValue.lean ====
/-
  The reference read at an entry over the extended reals.

  The reference views x[16, 64, 256, 256] as [16, 64, 128, 2, 128, 2] — entry (b, c, 2p + a, 2q + d) becomes
  (b, c, p, a, q, d) — and reduces over the two axes of extent 2. The entries that reduce into (b, c, p, q) are the four
  (b, c, p, a', q, d'), that is the aligned 2×2 patch of rows {2p, 2p+1} and columns {2q, 2q+1}. With M the maximum
  of a patch, the reference's entry is exp(x − M) / Σ_patch exp(x' − M). When every entry of x is a real number, M is a
  real number (a maximum of four reals, started from −∞), and the quotient is the patch softmax of x
  (`PatchSoftmax.shifted_quotient`): the mate of 2p + a is 2p + (1 − a).
-/
import proofs.«112671_g32006096290235_feedfinal_483_20_alg».proof.Proof.Gen.ReferenceIdeal.Read
import proofs.«112671_g32006096290235_feedfinal_483_20_alg».proof.Proof.PatchSoftmax
import Idealize.ShloMosaic.Lib.ValueIdxRank6
import Idealize.ShloMosaic.Lib.IdealHost
import Idealize.ShloMosaic.Lib.Pipeline.Value
import Idealize.ShloMosaic.PureOps.Reduce
import Idealize.ShloMosaic.PureOps.Ideal.Laws

noncomputable section

namespace Cert.ReferenceIdeal.RefValue

open Idealize.ShloMosaic Idealize.ShloMosaic.ValueIdx Cert.ReferenceIdeal Cert.ReferenceIdeal.Read Cert.PatchSoftmax

/-! ## The entries that reduce into one patch -/

/-- Dropping the two axes of extent 2 from (b, c, p, a, q, d) leaves (b, c, p, q). -/
theorem drop_patch (h' : S16x64x128x2x128x2.ReducesTo [3, 5] S16x64x128x128) (b : Fin 16) (c : Fin 64) (p : Fin 128)
    (a : Fin 2) (q : Fin 128) (d : Fin 2) : h'.drop (ix6 b c p a q d) = ix4 b c p q := by
  funext e; apply Fin.ext
  match e with
  | ⟨0, _⟩ => exact Shape.ReducesTo.drop_apply_val_of_eq h' (ix6 b c p a q d) ⟨0, by decide⟩ (0 : Fin 6)
  | ⟨1, _⟩ => exact Shape.ReducesTo.drop_apply_val_of_eq h' (ix6 b c p a q d) ⟨1, by decide⟩ (1 : Fin 6)
  | ⟨2, _⟩ => exact Shape.ReducesTo.drop_apply_val_of_eq h' (ix6 b c p a q d) ⟨2, by decide⟩ (2 : Fin 6)
  | ⟨3, _⟩ => exact Shape.ReducesTo.drop_apply_val_of_eq h' (ix6 b c p a q d) ⟨3, by decide⟩ (4 : Fin 6)

/-- An entry that reduces into (b, c, p, q) is (b, c, p, a, q, d) for its own a and d. -/
theorem eq_of_drop (h' : S16x64x128x2x128x2.ReducesTo [3, 5] S16x64x128x128) (b : Fin 16) (c : Fin 64) (p : Fin 128)
    (q : Fin 128) (i : S16x64x128x2x128x2.Idx) (hi : h'.drop i = ix4 b c p q) :
    i = ix6 b c p (i 3 : Fin 2) q (i 5 : Fin 2) := by
  funext e; apply Fin.ext
  match e with
  | ⟨0, _⟩ =>
    exact (Shape.ReducesTo.drop_apply_val_of_eq h' i ⟨0, by decide⟩ (0 : Fin 6)).symm.trans
      (congrArg (fun j : S16x64x128x128.Idx => (j ⟨0, by decide⟩).val) hi)
  | ⟨1, _⟩ =>
    exact (Shape.ReducesTo.drop_apply_val_of_eq h' i ⟨1, by decide⟩ (1 : Fin 6)).symm.trans
      (congrArg (fun j : S16x64x128x128.Idx => (j ⟨1, by decide⟩).val) hi)
  | ⟨2, _⟩ =>
    exact (Shape.ReducesTo.drop_apply_val_of_eq h' i ⟨2, by decide⟩ (2 : Fin 6)).symm.trans
      (congrArg (fun j : S16x64x128x128.Idx => (j ⟨2, by decide⟩).val) hi)
  | ⟨3, _⟩ => rfl
  | ⟨4, _⟩ =>
    exact (Shape.ReducesTo.drop_apply_val_of_eq h' i ⟨3, by decide⟩ (4 : Fin 6)).symm.trans
      (congrArg (fun j : S16x64x128x128.Idx => (j ⟨3, by decide⟩).val) hi)
  | ⟨5, _⟩ => rfl

/-- A sum over the entries that reduce into (b, c, p, q) is the sum over the patch's four entries. -/
theorem sum_patch (h' : S16x64x128x2x128x2.ReducesTo [3, 5] S16x64x128x128) (f : S16x64x128x2x128x2.Idx → EReal)
    (b : Fin 16) (c : Fin 64) (p : Fin 128) (q : Fin 128)
    [DecidablePred fun i : S16x64x128x2x128x2.Idx => h'.drop i = ix4 b c p q] :
    ∑ i ∈ Finset.univ.filter (fun i : S16x64x128x2x128x2.Idx => h'.drop i = ix4 b c p q), f i
      = (f (ix6 b c p 0 q 0) + f (ix6 b c p 0 q 1)) + (f (ix6 b c p 1 q 0) + f (ix6 b c p 1 q 1)) := by
  refine (Finset.sum_nbij' (t := (Finset.univ : Finset (Fin 2 × Fin 2)))
    (g := fun ad : Fin 2 × Fin 2 => f (ix6 b c p ad.1 q ad.2))
    (fun i : S16x64x128x2x128x2.Idx => ((i 3 : Fin 2), (i 5 : Fin 2)))
    (fun ad : Fin 2 × Fin 2 => ix6 b c p ad.1 q ad.2) ?_ ?_ ?_ ?_ ?_).trans ?_
  · intro i _; exact Finset.mem_univ _
  · intro ad _; rw [Finset.mem_filter]; exact ⟨Finset.mem_univ _, drop_patch h' b c p ad.1 q ad.2⟩
  · intro i hi; rw [Finset.mem_filter] at hi; exact (eq_of_drop h' b c p q i hi.2).symm
  · intro ad _; rfl
  · intro i hi; rw [Finset.mem_filter] at hi; exact congrArg f (eq_of_drop h' b c p q i hi.2)
  · rw [Fintype.sum_prod_type, Fin.sum_univ_two, Fin.sum_univ_two, Fin.sum_univ_two]

/-- The f32 word of −∞ denotes an extended real below ⊤. -/
theorem neg_inf_word_lt_top : Ideal.ofBits .f32 0xFF800000#32 < (⊤ : EReal) := by
  have e : Ideal.ofBits .f32 0xFF800000#32 = (⊥ : EReal) := by simp [Ideal.ofBits, Ideal.ieee]
  rw [e]; exact bot_lt_top

/-- The maximum of a patch of real entries, started from the −∞ word, is a real number. -/
theorem max_patch_real (h' : S16x64x128x2x128x2.ReducesTo [3, 5] S16x64x128x128) (y : S16x64x128x2x128x2.Idx → EReal)
    (hy : ∀ i, ∃ r : ℝ, y i = r) (b : Fin 16) (c : Fin 64) (p : Fin 128) (q : Fin 128)
    [DecidablePred fun i : S16x64x128x2x128x2.Idx => h'.drop i = ix4 b c p q] :
    ∃ M : ℝ, (Finset.univ.filter fun i : S16x64x128x2x128x2.Idx => h'.drop i = ix4 b c p q).fold max
      (Ideal.ofBits .f32 0xFF800000#32) y = (M : EReal) := by
  have hlt : (Finset.univ.filter fun i : S16x64x128x2x128x2.Idx => h'.drop i = ix4 b c p q).fold max
      (Ideal.ofBits .f32 0xFF800000#32) y < ⊤ := by
    rw [Finset.fold_max_lt]
    refine ⟨neg_inf_word_lt_top, fun i _ => ?_⟩
    obtain ⟨r, hr⟩ := hy i
    rw [hr]; exact EReal.coe_lt_top r
  have hgt : ⊥ < (Finset.univ.filter fun i : S16x64x128x2x128x2.Idx => h'.drop i = ix4 b c p q).fold max
      (Ideal.ofBits .f32 0xFF800000#32) y := by
    rw [Finset.lt_fold_max]
    refine Or.inr ⟨ix6 b c p 0 q 0, ?_, ?_⟩
    · rw [Finset.mem_filter]; exact ⟨Finset.mem_univ _, drop_patch h' b c p 0 q 0⟩
    · obtain ⟨r, hr⟩ := hy (ix6 b c p 0 q 0)
      rw [hr]; exact EReal.bot_lt_coe r
  exact ⟨_, (EReal.coe_toReal (ne_of_lt hlt) (ne_of_gt hgt)).symm⟩

/-! ## The reference's stages at an entry -/

/-- Entry (b, c, p, a, q, d) of the six-axis view is entry (b, c, 2p + a, 2q + d) of x. -/
theorem view_apply (x : S16x64x256x256.Idx → EReal) (b : Fin 16) (c : Fin 64) (p : Fin 128) (a : Fin 2) (q : Fin 128)
    (d : Fin 2) :
    val_main_v0 (F := Ideal) x (ix6 b c p a q d)
      = x (ix4 b c (⟨2 * p.val + a.val, by have := p.isLt; have := a.isLt; omega⟩ : Fin 256)
          (⟨2 * q.val + d.val, by have := q.isLt; have := d.isLt; omega⟩ : Fin 256)) := by
  have hb := b.isLt; have hc := c.isLt; have hp := p.isLt; have ha := a.isLt; have hq := q.isLt; have hd := d.isLt
  unfold val_main_v0
  refine shapeCast_apply x _ _ _ ?_
  rw [Shape.rowMajor_val_four, Shape.rowMajor_val_six]
  show ((b.val * 64 + c.val) * 256 + (2 * p.val + a.val)) * 256 + (2 * q.val + d.val)
    = ((((b.val * 64 + c.val) * 128 + p.val) * 2 + a.val) * 128 + q.val) * 2 + d.val
  omega

/-- The maximum broadcast back: every entry of a patch reads the patch's maximum. -/
theorem bmax_apply (x : S16x64x256x256.Idx → EReal) (b : Fin 16) (c : Fin 64) (p : Fin 128) (a : Fin 2) (q : Fin 128)
    (d : Fin 2) :
    val_main_v3 (F := Ideal) x (ix6 b c p a q d) = val_main_v1 (F := Ideal) x (ix4 b c p q) := by
  rw [val_main_v3_apply, val_main_v2_apply]
  refine congrArg _ (funext fun e => Fin.ext ?_)
  match e with
  | ⟨0, _⟩ => rfl
  | ⟨1, _⟩ => rfl
  | ⟨2, _⟩ => rfl
  | ⟨3, _⟩ => rfl

/-- The sum broadcast back: every entry of a patch reads the patch's sum. -/
theorem bsum_apply (x : S16x64x256x256.Idx → EReal) (b : Fin 16) (c : Fin 64) (p : Fin 128) (a : Fin 2) (q : Fin 128)
    (d : Fin 2) :
    val_main_v8 (F := Ideal) x (ix6 b c p a q d) = val_main_v6 (F := Ideal) x (ix4 b c p q) := by
  rw [val_main_v8_apply, val_main_v7_apply]
  refine congrArg _ (funext fun e => Fin.ext ?_)
  match e with
  | ⟨0, _⟩ => rfl
  | ⟨1, _⟩ => rfl
  | ⟨2, _⟩ => rfl
  | ⟨3, _⟩ => rfl

/-- A patch's maximum is a real number when the entries of x are. -/
theorem max_real (x : S16x64x256x256.Idx → EReal) (hx : ∀ i, ∃ r : ℝ, x i = r) (b : Fin 16) (c : Fin 64) (p : Fin 128)
    (q : Fin 128) : ∃ M : ℝ, val_main_v1 (F := Ideal) x (ix4 b c p q) = (M : EReal) := by
  unfold val_main_v1
  rw [Host.reduce_eq_fold]
  refine max_patch_real _ (val_main_v0 (F := Ideal) x) (fun i => ?_) b c p q
  obtain ⟨b', c', p', a', q', d', rfl⟩ : ∃ b' c' p' a' q' d', i = ix6 b' c' p' a' q' d' :=
    ⟨i 0, i 1, i 2, i 3, i 4, i 5, eq_ix6 i⟩
  rw [view_apply]
  exact hx _

/-- exp(x − M) at an entry of the six-axis view. -/
theorem shifted_apply (x : S16x64x256x256.Idx → EReal) (M : EReal) (b : Fin 16) (c : Fin 64) (p : Fin 128) (a : Fin 2)
    (q : Fin 128) (d : Fin 2) (hM : val_main_v1 (F := Ideal) x (ix4 b c p q) = M) :
    val_main_v5 (F := Ideal) x (ix6 b c p a q d)
      = Ideal.exp (x (ix4 b c (⟨2 * p.val + a.val, by have := p.isLt; have := a.isLt; omega⟩ : Fin 256)
          (⟨2 * q.val + d.val, by have := q.isLt; have := d.isLt; omega⟩ : Fin 256)) - M) := by
  rw [val_main_v5_apply, val_main_v4_apply, view_apply, bmax_apply, hM]
  rfl

/-- The mate of position 2p + a of 256 is 2p + (mate of a in the pair). -/
theorem mate_pair (p : Fin 128) (a : Fin 2) :
    mate (n := 256) (by decide) (⟨2 * p.val + a.val, by have := p.isLt; have := a.isLt; omega⟩ : Fin 256)
      = (⟨2 * p.val + (mate (n := 2) (by decide) a).val, by
          have := p.isLt; have := (mate (n := 2) (by decide) a).isLt; omega⟩ : Fin 256) := by
  have hp := p.isLt; have ha := a.isLt
  apply Fin.ext
  show (if (2 * p.val + a.val) % 2 = 0 then 2 * p.val + a.val + 1 else 2 * p.val + a.val - 1)
    = 2 * p.val + (if a.val % 2 = 0 then a.val + 1 else a.val - 1)
  split <;> split <;> omega

/-- Four numbers indexed by a pair of bits, summed in the reference's order, are the number at (a, d), at its row mate,
    at its column mate and at the opposite corner. -/
theorem four_sum (g : Fin 2 → Fin 2 → ℝ) (a d : Fin 2) :
    (g 0 0 + g 0 1) + (g 1 0 + g 1 1)
      = g a d + g a (mate (n := 2) (by decide) d) + g (mate (n := 2) (by decide) a) d
        + g (mate (n := 2) (by decide) a) (mate (n := 2) (by decide) d) := by
  have m0 : mate (n := 2) (by decide) (0 : Fin 2) = 1 := rfl
  have m1 : mate (n := 2) (by decide) (1 : Fin 2) = 0 := rfl
  fin_cases a <;> fin_cases d <;> simp only [m0, m1, Fin.zero_eta, Fin.mk_one] <;> ring

/-- THE REFERENCE AT AN ENTRY: the patch softmax of x, when the entries of x are real numbers. -/
theorem ref_apply (x : S16x64x256x256.Idx → EReal) (hx : ∀ i, ∃ r : ℝ, x i = r) (b : Fin 16) (c : Fin 64) (p : Fin 128)
    (a : Fin 2) (q : Fin 128) (d : Fin 2) :
    val_main_v10 (F := Ideal) x
        (ix4 b c (⟨2 * p.val + a.val, by have := p.isLt; have := a.isLt; omega⟩ : Fin 256)
          (⟨2 * q.val + d.val, by have := q.isLt; have := d.isLt; omega⟩ : Fin 256))
      = soft4 (n0 := 16) (n1 := 64) (by decide) (by decide) x b c
          (⟨2 * p.val + a.val, by have := p.isLt; have := a.isLt; omega⟩ : Fin 256)
          (⟨2 * q.val + d.val, by have := q.isLt; have := d.isLt; omega⟩ : Fin 256) := by
  have hb := b.isLt; have hc := c.isLt; have hp := p.isLt; have ha := a.isLt; have hq := q.isLt; have hd := d.isLt
  -- the reals behind the patch's four entries and its maximum
  choose X hX using fun a' d' : Fin 2 =>
    hx (ix4 b c (⟨2 * p.val + a'.val, by have := a'.isLt; omega⟩ : Fin 256) (⟨2 * q.val + d'.val, by have := d'.isLt; omega⟩ : Fin 256))
  obtain ⟨M, hM⟩ := max_real x hx b c p q
  have hE : ∀ a' d' : Fin 2, val_main_v5 (F := Ideal) x (ix6 b c p a' q d') = ((Real.exp (X a' d' - M) : ℝ) : EReal) := by
    intro a' d'
    rw [shifted_apply x (M : EReal) b c p a' q d' hM, hX a' d', ← EReal.coe_sub, Ideal.exp_coe]
  -- the entry through the final reshape
  unfold val_main_v10
  refine (shapeCast_apply (val_main_v9 (F := Ideal) x) _ _ (ix6 b c p a q d) ?_).trans ?_
  · rw [Shape.rowMajor_val_four, Shape.rowMajor_val_six]
    show ((((b.val * 64 + c.val) * 128 + p.val) * 2 + a.val) * 128 + q.val) * 2 + d.val
      = ((b.val * 64 + c.val) * 256 + (2 * p.val + a.val)) * 256 + (2 * q.val + d.val)
    omega
  rw [val_main_v9_apply, bsum_apply, shifted_apply x (M : EReal) b c p a q d hM, hX a d]
  show Ideal.div _ (val_main_v6 (F := Ideal) x (ix4 b c p q)) = _
  unfold soft4
  rw [mate_pair p a, mate_pair q d, hX a d, hX a (mate (n := 2) (by decide) d), hX (mate (n := 2) (by decide) a) d,
    hX (mate (n := 2) (by decide) a) (mate (n := 2) (by decide) d)]
  refine shifted_quotient (X a d) (X a (mate (n := 2) (by decide) d)) (X (mate (n := 2) (by decide) a) d)
    (X (mate (n := 2) (by decide) a) (mate (n := 2) (by decide) d)) M _ ?_
  unfold val_main_v6
  rw [hostReduceAdd_apply]
  unfold Ideal.hostReduceAdd
  rw [sum_patch, hE, hE, hE, hE]
  show Ideal.ofBits .f32 0x00000000#32 + _ = _
  rw [Ideal.ofBits_zero_f32, zero_add, ← EReal.coe_add, ← EReal.coe_add, ← EReal.coe_add]
  exact congrArg _ (four_sum (fun a' d' => Real.exp (X a' d' - M)) a d)

/-- Every position of 256 is 2p + a for a pair index p and a bit a. -/
theorem split_pair (h : Fin 256) :
    ∃ (p : Fin 128) (a : Fin 2), h = (⟨2 * p.val + a.val, by have := p.isLt; have := a.isLt; omega⟩ : Fin 256) :=
  ⟨⟨h.val / 2, by have := h.isLt; omega⟩, ⟨h.val % 2, by omega⟩,
    Fin.ext (by show h.val = 2 * (h.val / 2) + h.val % 2; omega)⟩

/-- THE REFERENCE AS A WHOLE ARRAY: the patch softmax of x over the last two axes, when the entries of x are real. -/
theorem ref_eq (x : S16x64x256x256.Idx → EReal) (hx : ∀ i, ∃ r : ℝ, x i = r) :
    val_main_v10 (F := Ideal) x = soft4Arr (n0 := 16) (n1 := 64) (n2 := 256) (n3 := 256) (by decide) (by decide) x := by
  funext o
  obtain ⟨b, c, h, w, rfl⟩ : ∃ (b : Fin 16) (c : Fin 64) (h w : Fin 256), o = ix4 b c h w := ⟨o 0, o 1, o 2, o 3, eq_ix4 o⟩
  obtain ⟨p, a, rfl⟩ := split_pair h
  obtain ⟨q, d, rfl⟩ := split_pair w
  exact ref_apply x hx b c p a q d

end Cert.ReferenceIdeal.RefValue

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.FiniteEntries.lean ====
/-
  The precondition says that every entry of the argument is finite: the test |x| < +∞ holds at every entry (the
  reduction by "and" over all four axes is 1 only if every entry's test is 1), and an extended real whose absolute
  value is below +∞ is a real number.
-/
import proofs.«112671_g32006096290235_feedfinal_483_20_alg».proof.Proof.Gen.Pre_finite_inputs
import proofs.«112671_g32006096290235_feedfinal_483_20_alg».proof.Proof.LibFiniteTest
import Idealize.ShloMosaic.Lib.ReduceAll
import Idealize.ShloMosaic.Lib.ValueIdx

noncomputable section

namespace Cert.Pre_finite_inputs.Entries

open Idealize.ShloMosaic Cert.Pre_finite_inputs

/-- Under the precondition every entry of the argument is a real number. -/
theorem real_of_pre (x : FVec Ideal S16x64x256x256 .f32) (h : Cert.Pre_finite_inputs.fn (F := Ideal) x = fun _ => 1#1)
    (i : S16x64x256x256.Idx) : ∃ r : ℝ, x i = r := by
  have h0 := congrFun h ValueIdx.ix0
  dsimp only [Cert.Pre_finite_inputs.fn] at h0
  haveI := FiniteTest.subsingleton_scalarIdx
  exact FiniteTest.real_of_test x _ i (Host.reduce_andi_all _ _ _ _ ValueIdx.ix0 h0 i)

end Cert.Pre_finite_inputs.Entries

end
-- ==== Proof.lean ====
/-
  The kernel computes, for every aligned 2×2 patch of the last two axes of x[16, 64, 256, 256], the softmax of the
  patch's four entries: exp x · 1 / (sum of the patch's four exponentials), the sum formed by adding each entry's lane
  partner and then its row partner. The reference subtracts the patch's maximum before exponentiating and divides by
  the sum of the shifted exponentials. Over the extended reals, with every entry of x finite, the maximum is a real
  number M, exp(x − M) = exp x · exp(−M), and the positive real factor exp(−M) cancels: both programs end at the patch
  softmax of x (`PatchSoftmax.soft4Arr`). The precondition is used exactly there; the kernel's side needs none.

  The kernel's value is read off its frame run: one store of the body (`Payload.store_apply`), the 64 stores of a
  block (`Block.block_eq`), the 64 blocks of the array and the host's two reshapes (`ArrayValue.run`). The
  reference's value is its run read stage by stage, the two reductions over the pair axes read as sums and maxima over
  a patch's four entries (`RefValue.ref_eq`). The ideal pass rewrote nothing, so `preserves` is `True`.
-/
import proofs.«112671_g32006096290235_feedfinal_483_20_alg».proof.Defs
import proofs.«112671_g32006096290235_feedfinal_483_20_alg».proof.Proof.Gen.Kernel
import proofs.«112671_g32006096290235_feedfinal_483_20_alg».proof.Proof.Gen.Kernel.Skeleton
import proofs.«112671_g32006096290235_feedfinal_483_20_alg».proof.Proof.Gen.Kernel.Launch
import proofs.«112671_g32006096290235_feedfinal_483_20_alg».proof.Proof.Gen.Kernel.Points
import proofs.«112671_g32006096290235_feedfinal_483_20_alg».proof.Proof.Gen.Kernel.Frame
import proofs.«112671_g32006096290235_feedfinal_483_20_alg».proof.Proof.Gen.KernelIdeal
import proofs.«112671_g32006096290235_feedfinal_483_20_alg».proof.Proof.Gen.KernelIdeal.Skeleton
import proofs.«112671_g32006096290235_feedfinal_483_20_alg».proof.Proof.Gen.KernelIdeal.Launch
import proofs.«112671_g32006096290235_feedfinal_483_20_alg».proof.Proof.Gen.KernelIdeal.Points
import proofs.«112671_g32006096290235_feedfinal_483_20_alg».proof.Proof.Gen.KernelIdeal.Frame
import proofs.«112671_g32006096290235_feedfinal_483_20_alg».proof.Proof.Gen.ReferenceIdeal
import proofs.«112671_g32006096290235_feedfinal_483_20_alg».proof.Proof.Gen.Pre_finite_inputs
import proofs.«112671_g32006096290235_feedfinal_483_20_alg».proof.Proof.Gen.ReferenceIdeal.Run
import proofs.«112671_g32006096290235_feedfinal_483_20_alg».proof.Proof.Gen.ReferenceIdeal.Read
import proofs.«112671_g32006096290235_feedfinal_483_20_alg».proof.Proof.ArrayValue
import proofs.«112671_g32006096290235_feedfinal_483_20_alg».proof.Proof.RefValue
import proofs.«112671_g32006096290235_feedfinal_483_20_alg».proof.Proof.FiniteEntries
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on x, end at the patch softmax of x: the kernel always, the reference
    because the precondition makes every entry of x a real number. -/
theorem algebraic : Cert.algebraic_KernelIdeal_ReferenceIdeal := by
  intro m ρ m' ρ' hpre hagree
  refine ⟨fun c => Cert.PatchSoftmax.soft4Arr (n0 := 16) (n1 := 64) (n2 := 256) (n3 := 256) (by decide) (by decide)
      (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v10_eq _).trans
    (Cert.ReferenceIdeal.RefValue.ref_eq _ (Cert.Pre_finite_inputs.Entries.real_of_pre _ (hpre c)))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
